-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1000000 : Shape := ⟨2, ![2, 1000000]⟩
abbrev S64x512 : Shape := ⟨2, ![64, 512]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S100000x512 .f32) (main_arg1 : IVec S2x1000000 32) (main_arg2 : FVec F S64x512 .f32) (main_arg3 : FVec F S64 .f32) (main_arg4 : FVec F S64x64 .f32) (main_arg5 : FVec F S64 .f32) (main_arg6 : FVec F S64x64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x512 : Shape := ⟨2, ![100000, 512]⟩
abbrev S2x1000000 : Shape := ⟨2, ![2, 1000000]⟩
abbrev S64x512 : Shape := ⟨2, ![64, 512]⟩
abbrev S64 : Shape := ⟨1, ![64]⟩
abbrev S64x64 : Shape := ⟨2, ![64, 64]⟩
abbrev S512x64 : Shape := ⟨2, ![512, 64]⟩
abbrev S1x64 : Shape := ⟨2, ![1, 64]⟩
abbrev S100000x64 : Shape := ⟨2, ![100000, 64]⟩
abbrev S5000x512 : Shape := ⟨2, ![5000, 512]⟩
abbrev S5000x64 : Shape := ⟨2, ![5000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩

abbrev nBuf : Space → Nat
  | .hbm => 43
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x1000000, .i32⟩
  | .hbm, ⟨2, _⟩ => ⟨S64x512, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S512x64, .f32⟩
  | .hbm, ⟨8, _⟩ => ⟨S1x64, .f32⟩
  | .hbm, ⟨9, _⟩ => ⟨S100000x64, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S64x64, .f32⟩
  | .hbm, ⟨41, _⟩ => ⟨S1x64, .f32⟩
  | .hbm, ⟨42, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x512_S512x64_1_0 : S64x512.Transposes [1, 0] S512x64
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S5000x512_S512x64_S5000x64_1_0_0_1_n_n_wf : DotDims.WF S5000x512 S512x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1000000 : Shape := ⟨2, ![2, 1000000]⟩
abbrev S64x512 : Shape := ⟨2, ![64, 512]⟩
abbrev S64 : Shape := ⟨1, ![64]⟩
abbrev S64x64 : Shape := ⟨2, ![64, 64]⟩
abbrev S512x64 : Shape := ⟨2, ![512, 64]⟩
abbrev S100000x64 : Shape := ⟨2, ![100000, 64]⟩
abbrev S1x64 : Shape := ⟨2, ![1, 64]⟩
abbrev S_ : Shape := ⟨0, ![]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩

abbrev nBuf : Space → Nat
  | .hbm => 52
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1000000, .i32⟩
  | .hbm, ⟨2, _⟩ => ⟨S64x512, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S512x64, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S100000, .f32⟩
  | .hbm, ⟨36, _⟩ => ⟨S1000000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  dot_S100000x512_S512x64_S100000x64_1_0_0_1_n_n_wf : DotDims.WF S100000x512 S512x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result array NAMED: every weakly fair execution of @main terminates, nothing
  faulting, with the result array at the contents `W4 … main_v29` the second region's write-backs leave (the fold of the
  two host stretches and the two regions from the launch memory) and the arguments as launched. The launch over the four
  segments is the frame's; only the reading of the final state differs: the result array is read too.
-/
import proofs.«131698_j1176821039652_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last thread state beside the arguments. -/
theorem run_out : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.RefSpec.lean ====
/-
  The reference's three stages as plain functions of the arrays they read, index by index, at the ideal instance.

  * `lin X WT b` — the dense layer followed by the rectifier: at `(r, c)` the larger of `∑ₖ X[r,k]·WT[k,c] + b[c]` and `0`;
  * `agg h e` — the mean of the rows of `h` over the incoming edges of every node: rows gathered by the source column of
    `e`, summed into the destination rows, divided by the larger of the in-degree and `1` (kept as ONE function of `h` and
    `e`; nothing below looks inside it);
  * `combine M H WL WR b` — `(∑ₖ M[r,k]·WL[k,c] + b[c]) + ∑ₖ H[r,k]·WR[k,c]`.

  The reference's result is `combine (agg h e) h Wlᵀ Wrᵀ bl` with `h = lin x W1ᵀ b1`.
-/
import proofs.«131698_j1176821039652_1_alg».proof.Proof.Gen.ReferenceIdeal.Read

noncomputable section

namespace Cert.ReferenceIdeal.Spec

open Cert.ReferenceIdeal Cert.ReferenceIdeal.Gen Cert.ReferenceIdeal.Read Idealize.ShloMosaic

/-- The dense layer and the rectifier: `max (∑ₖ X[r,k]·WT[k,c] + b[c]) 0` at `(r, c)`. -/
def lin (X : (⟨S100000x512, .f32⟩ : BufTy).Contents (Elt Ideal)) (WT : (⟨S512x64, .f32⟩ : BufTy).Contents (Elt Ideal))
    (b : (⟨S64, .f32⟩ : BufTy).Contents (Elt Ideal)) : (⟨S100000x64, .f32⟩ : BufTy).Contents (Elt Ideal) :=
  fun i => max (∑ k : Fin 512, X (lidx_main_v1 i k) * WT (ridx_main_v1 i k) + b (idx_main_v2 (idx_main_v3 i)))
    (Ideal.ofBits .f32 0x00000000#32)

/-- The reference's hidden layer is `lin` of the input, the transposed weight and the bias. -/
theorem v5_eq (x0 : (⟨S100000x512, .f32⟩ : BufTy).Contents (Elt Ideal)) (x2 : (⟨S64x512, .f32⟩ : BufTy).Contents (Elt Ideal))
    (x3 : (⟨S64, .f32⟩ : BufTy).Contents (Elt Ideal)) :
    val_main_v5 (F := Ideal) x0 x2 x3 = lin x0 (val_main_v0 (F := Ideal) x2) x3 := by
  funext i
  rw [val_main_v5_apply, val_main_v4_apply, val_main_v1_apply, val_main_v3_apply, val_main_v2_apply,
    val_main_call0_v0_apply, val_main_call0_cst_apply]
  rfl

/-- The neighbour mean as one function of the hidden layer and the edge list. -/
def agg (h : FVec Ideal S100000x64 .f32) (e : (⟨S2x1000000, .i32⟩ : BufTy).Contents (Elt Ideal)) :
    FVec Ideal S100000x64 .f32 :=
  Host.divf (F := Ideal) (φ := .f32) (Host.scatterAdd (F := Ideal) (φ := .f32) scatter_S100000x64_S1000000x1_S1000000x64_1_0_0_1 (val_main_v17 (F := Ideal)) (val_main_v18 (F := Ideal) e)
      (Host.gather gather_S100000x64_S1000000x1_S1000000x64_1_0_n_n_0_1_164 h (val_main_v15 (F := Ideal) e)))
    (val_main_v27 (F := Ideal) e)

/-- The reference's mean stage is `agg` of its hidden layer. -/
theorem v28_eq (x0 : (⟨S100000x512, .f32⟩ : BufTy).Contents (Elt Ideal)) (x1 : (⟨S2x1000000, .i32⟩ : BufTy).Contents (Elt Ideal))
    (x2 : (⟨S64x512, .f32⟩ : BufTy).Contents (Elt Ideal)) (x3 : (⟨S64, .f32⟩ : BufTy).Contents (Elt Ideal)) :
    val_main_v28 (F := Ideal) x0 x1 x2 x3 = agg (val_main_v5 (F := Ideal) x0 x2 x3) x1 := rfl

/-- The output layer: `(∑ₖ M[r,k]·WL[k,c] + b[c]) + ∑ₖ H[r,k]·WR[k,c]` at `(r, c)`. -/
def combine (M H : (⟨S100000x64, .f32⟩ : BufTy).Contents (Elt Ideal)) (WL WR : (⟨S64x64, .f32⟩ : BufTy).Contents (Elt Ideal))
    (b : (⟨S64, .f32⟩ : BufTy).Contents (Elt Ideal)) : (⟨S100000x64, .f32⟩ : BufTy).Contents (Elt Ideal) :=
  fun i => (∑ k : Fin 64, M (lidx_main_v30 i k) * WL (ridx_main_v30 i k) + b (idx_main_v31 (idx_main_v32 i)))
    + ∑ k : Fin 64, H (lidx_main_v35 i k) * WR (ridx_main_v35 i k)

/-- The reference's result is `combine` of its mean stage, its hidden layer, the two transposed weights and the bias. -/
theorem v36_eq (x0 : (⟨S100000x512, .f32⟩ : BufTy).Contents (Elt Ideal)) (x1 : (⟨S2x1000000, .i32⟩ : BufTy).Contents (Elt Ideal))
    (x2 : (⟨S64x512, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) :
    val_main_v36 (F := Ideal) x0 x1 x2 x3 x4 x5 x6
      = combine (val_main_v28 (F := Ideal) x0 x1 x2 x3) (val_main_v5 (F := Ideal) x0 x2 x3) (val_main_v29 (F := Ideal) x4)
          (val_main_v34 (F := Ideal) x6) x5 := by
  funext i
  rw [val_main_v36_apply, val_main_v33_apply, val_main_v30_apply, val_main_v32_apply, val_main_v31_apply, val_main_v35_apply]
  rfl

end Cert.ReferenceIdeal.Spec

end
-- ==== Proof.Payload.lean ====
/-
  What each kernel body stores, read at an entry of its 5000×64 output block (at the ideal instance, where the
  roundings to bf16 on the way into the matrix unit are the identity):

  * the first body stores `max (∑ₖ x[p,k]·w[k,q] + b[0,q]) 0` at `(p, q)`, `x` its 5000×512 block of rows, `w` the
    512×64 weight block, `b` the 1×64 bias row;
  * the second stores `(∑ₖ a[p,k]·wl[k,q] + b[0,q]) + ∑ₖ h[p,k]·wr[k,q]`, `a` and `h` its two 5000×64 row blocks.
-/
import proofs.«131698_j1176821039652_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic

/-! ### The 512-term product of a 5000×512 block with a 512×64 block, read at an entry -/

theorem lhs0_0 (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem lhs0_1 (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
theorem rhs0_0 (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
theorem rhs0_1 (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- Entry `(p, k)` of the left block, for the output entry `j = (p, q)`. -/
abbrev lrow0 (j : S5000x64.Idx) (k : Fin 512) : S5000x512.Idx := fun a => match a with
  | ⟨0, _⟩ => ⟨(j 0).val, (j 0).isLt⟩
  | ⟨1, _⟩ => ⟨k.val, k.isLt⟩
/-- Entry `(k, q)` of the right block, for the output entry `j = (p, q)`. -/
abbrev rcol0 (j : S5000x64.Idx) (k : Fin 512) : S512x64.Idx := fun a => match a with
  | ⟨0, _⟩ => ⟨k.val, k.isLt⟩
  | ⟨1, _⟩ => ⟨(j 1).val, (j 1).isLt⟩

/-- The matrix unit's product into a zero accumulator is, at `(p, q)`, the sum over `k` of `l[p,k]·r[k,q]`. -/
theorem mm0_apply {φ₁ φ₂ : FTy} (l : FVec Ideal S5000x512 φ₁) (r : FVec Ideal S512x64 φ₂) (j : S5000x64.Idx) :
    matmul dot_S5000x512_S512x64_S5000x64_1_0_0_1_n_n none l r (constant (F := Ideal) S5000x64 .f32 0x00000000#32) j
      = ∑ k : Fin 512, l (lrow0 j k) * r (rcol0 j k) := by
  refine (Ideal.matmul_constant_zero_apply dot_S5000x512_S512x64_S5000x64_1_0_0_1_n_n none l r j).trans ?_
  rw [← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx j ((ValueIdx.contrEquiv1 dot_S5000x512_S512x64_S5000x64_1_0_0_1_n_n 512 rfl rfl).symm k) = lrow0 j k := funext fun a => Fin.ext (by
    match a with
    | ⟨0, _⟩ => exact lhs0_0 _ _
    | ⟨1, _⟩ => exact (lhs0_1 _ _).trans hk)
  have er : dot_S5000x512_S512x64_S5000x64_1_0_0_1_n_n.rhsIdx j ((ValueIdx.contrEquiv1 dot_S5000x512_S512x64_S5000x64_1_0_0_1_n_n 512 rfl rfl).symm k) = rcol0 j k := funext fun a => Fin.ext (by
    match a with
    | ⟨0, _⟩ => exact (rhs0_0 _ _).trans hk
    | ⟨1, _⟩ => exact rhs0_1 _ _)
  rw [el, er]

/-! ### The 64-term product of a 5000×64 block with a 64×64 block, read at an entry -/

theorem lhs1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(p, k)` of the left block, for the output entry `j = (p, q)`. -/
abbrev lrow1 (j : S5000x64.Idx) (k : Fin 64) : S5000x64.Idx := fun a => match a with
  | ⟨0, _⟩ => ⟨(j 0).val, (j 0).isLt⟩
  | ⟨1, _⟩ => ⟨k.val, k.isLt⟩
/-- Entry `(k, q)` of the right block, for the output entry `j = (p, q)`. -/
abbrev rcol1 (j : S5000x64.Idx) (k : Fin 64) : S64x64.Idx := fun a => match a with
  | ⟨0, _⟩ => ⟨k.val, k.isLt⟩
  | ⟨1, _⟩ => ⟨(j 1).val, (j 1).isLt⟩

/-- The matrix unit's product into a zero accumulator is, at `(p, q)`, the sum over `k` of `l[p,k]·r[k,q]`. -/
theorem mm1_apply {φ₁ φ₂ : FTy} (l : FVec Ideal S5000x64 φ₁) (r : FVec Ideal S64x64 φ₂) (j : S5000x64.Idx) :
    matmul dot_S5000x64_S64x64_S5000x64_1_0_0_1_n_n none l r (constant (F := Ideal) S5000x64 .f32 0x00000000#32) j
      = ∑ k : Fin 64, l (lrow1 j k) * r (rcol1 j k) := by
  refine (Ideal.matmul_constant_zero_apply dot_S5000x64_S64x64_S5000x64_1_0_0_1_n_n none l r j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lrow1 j k := funext fun a => Fin.ext (by
    match a with
    | ⟨0, _⟩ => exact lhs1_0 _ _
    | ⟨1, _⟩ => exact (lhs1_1 _ _).trans hk)
  have er : dot_S5000x64_S64x64_S5000x64_1_0_0_1_n_n.rhsIdx j ((ValueIdx.contrEquiv1 dot_S5000x64_S64x64_S5000x64_1_0_0_1_n_n 64 rfl rfl).symm k) = rcol1 j k := funext fun a => Fin.ext (by
    match a with
    | ⟨0, _⟩ => exact (rhs1_0 _ _).trans hk
    | ⟨1, _⟩ => exact rhs1_1 _ _)
  rw [el, er]

/-! ### The bias row under every row of the block -/

/-- Entry `(0, q)` of the bias row, for the output entry `j = (p, q)`. -/
abbrev brow (j : S5000x64.Idx) : S1x64.Idx := fun a => match a with
  | ⟨0, _⟩ => ⟨0, Nat.one_pos⟩
  | ⟨1, _⟩ => ⟨(j 1).val, (j 1).isLt⟩

theorem bcast_row (v : FVec Ideal S1x64 .f32) (j : S5000x64.Idx) :
    broadcastTo S5000x64 v broadcasts_S1x64_S5000x64 j = v (brow j) :=
  broadcastTo_apply v broadcasts_S1x64_S5000x64 j (brow j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-! ### The two payloads -/

/-- The first body's store at `(p, q)`: the rectified dense layer of its blocks. -/
theorem pay0_apply (x0 : FVec Ideal S5000x512 .f32) (x1 : FVec Ideal S512x64 .f32) (x2 : FVec Ideal S1x64 .f32) (j : S5000x64.Idx) :
    k0_pay1 (F := Ideal) x0 x1 x2 j
      = max (∑ k : Fin 512, x0 (lrow0 j k) * x1 (rcol0 j k) + x2 (brow j)) (Ideal.ofBits .f32 0x00000000#32) := by
  unfold k0_pay1
  simp only [shapeCast_self]
  show max (matmul dot_S5000x512_S512x64_S5000x64_1_0_0_1_n_n none (truncf .bf16 x0 bitsLt_bf16_f32) (truncf .bf16 x1 bitsLt_bf16_f32) (constant (F := Ideal) S5000x64 .f32 0x00000000#32) j
      + broadcastTo S5000x64 x2 broadcasts_S1x64_S5000x64 j) (Ideal.ofBits .f32 0x00000000#32) = _
  rw [mm0_apply, bcast_row]
  rfl

/-- The second body's store at `(p, q)`: the two products and the bias, added in the body's order. -/
theorem pay1_apply (v0 v3 : FVec Ideal S5000x64 .f32) (v6 v9 : FVec Ideal S64x64 .f32) (v13 : FVec Ideal S1x64 .f32) (j : S5000x64.Idx) :
    k1_pay1 (F := Ideal) v0 v3 v6 v9 v13 j
      = (∑ k : Fin 64, v0 (lrow1 j k) * v6 (rcol1 j k) + v13 (brow j)) + ∑ k : Fin 64, v3 (lrow1 j k) * v9 (rcol1 j k) := by
  unfold k1_pay1
  simp only [shapeCast_self]
  show (matmul dot_S5000x64_S64x64_S5000x64_1_0_0_1_n_n none (truncf .bf16 v0 bitsLt_bf16_f32) (truncf .bf16 v6 bitsLt_bf16_f32) (constant (F := Ideal) S5000x64 .f32 0x00000000#32) j
      + broadcastTo S5000x64 v13 broadcasts_S1x64_S5000x64 j)
      + matmul dot_S5000x64_S64x64_S5000x64_1_0_0_1_n_n none (truncf .bf16 v3 bitsLt_bf16_f32) (truncf .bf16 v9 bitsLt_bf16_f32) (constant (F := Ideal) S5000x64 .f32 0x00000000#32) j = _
  rw [mm1_apply, mm1_apply, bcast_row]
  rfl

end Cert.KernelIdeal.Hand

end
-- ==== Proof.Region0.lean ====
/-
  The first region's output array, whatever the buffers hold when the region is entered (`V`): with `X` the array under
  the row window, `WT` the 512×64 array under the weight window and the 1×64 array under the bias window holding the
  bias `B`, the region leaves `lin X WT B` — entry `(r, c)` is `max (∑ₖ X[r,k]·WT[k,c] + B[c]) 0`.
  Point `t` of the 20-point grid computes rows `5000·t … 5000·t + 4999`: its row block is those rows of `X`, its weight and
  bias blocks are the whole arrays, and the blocks it writes back tile the 100000 rows.
-/
import proofs.«131698_j1176821039652_1_alg».proof.Proof.Gen.KernelIdeal.Frame
import proofs.«131698_j1176821039652_1_alg».proof.Proof.Payload
import proofs.«131698_j1176821039652_1_alg».proof.Proof.RefSpec
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.ReferenceIdeal.Spec

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row window and the output window move with the point, the weight and bias
    windows stay at block 0. -/
theorem idx0 : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)

/-- The row block at point `t` is rows `5000·t …` of the array under it. -/
theorem rows0 (c : Dev nD) (t : Fin cfg0.N) (x : S5000x512.Idx) (i : S100000x512.Idx)
    (h0 : (i 0).val = 5000 * t.val + (x 0).val) (h1 : (i 1).val = (x 1).val) :
    (iblk0 V c 0 t : FVec Ideal S5000x512 .f32) x = (V c main_arg0 : S100000x512.Idx → EReal) i := by
  obtain ⟨e0, e1, -⟩ := idx0 t
  unfold iblk0
  rw [View.read_apply]
  show V c main_arg0 _ = V c main_arg0 _
  refine congrArg _ ?_
  funext a
  apply Fin.ext
  match a with
  | ⟨0, _⟩ => show win0_0.index t 0 * 5000 + 1 * (x 0).val = (i 0).val; rw [e0, h0]; omega
  | ⟨1, _⟩ => show win0_0.index t 1 * 512 + 1 * (x 1).val = (i 1).val; rw [e1, h1]; omega

/-- The weight block at every point is the whole array under it. -/
theorem wblk0 (c : Dev nD) (t : Fin cfg0.N) (x : S512x64.Idx) (i : S512x64.Idx)
    (h0 : (i 0).val = (x 0).val) (h1 : (i 1).val = (x 1).val) :
    (iblk0 V c 1 t : FVec Ideal S512x64 .f32) x = (V c main_v0 : S512x64.Idx → EReal) i := by
  obtain ⟨-, -, e2, e3, -⟩ := idx0 t
  unfold iblk0
  rw [View.read_apply]
  show V c main_v0 _ = V c main_v0 _
  refine congrArg _ ?_
  funext a
  apply Fin.ext
  match a with
  | ⟨0, _⟩ => show win0_1.index t 0 * 512 + 1 * (x 0).val = (i 0).val; rw [e2, h0]; omega
  | ⟨1, _⟩ => show win0_1.index t 1 * 64 + 1 * (x 1).val = (i 1).val; rw [e3, h1]; omega

/-- The bias block at every point is the whole array under it. -/
theorem bblk0 (c : Dev nD) (t : Fin cfg0.N) (x : S1x64.Idx) (i : S1x64.Idx)
    (h0 : (i 0).val = (x 0).val) (h1 : (i 1).val = (x 1).val) :
    (iblk0 V c 2 t : FVec Ideal S1x64 .f32) x = (V c main_v1 : S1x64.Idx → EReal) i := by
  obtain ⟨-, -, -, -, e4, e5, -⟩ := idx0 t
  unfold iblk0
  rw [View.read_apply]
  show V c main_v1 _ = V c main_v1 _
  refine congrArg _ ?_
  funext a
  apply Fin.ext
  match a with
  | ⟨0, _⟩ => show win0_2.index t 0 * 1 + 1 * (x 0).val = (i 0).val; rw [e4, h0]; omega
  | ⟨1, _⟩ => show win0_2.index t 1 * 64 + 1 * (x 1).val = (i 1).val; rw [e5, h1]; omega

/-- What point `t` stores at `(p, q)` of its block is `lin` at row `5000·t + p`, column `q`. -/
theorem entry0 (c : Dev nD) (t : Fin cfg0.N) (B : FVec Ideal S64 .f32)
    (hB : ∀ (y : S1x64.Idx) (z : S64.Idx), (z 0).val = (y 1).val → (V c main_v1 : S1x64.Idx → EReal) y = B z)
    (j : S5000x64.Idx) (i : S100000x64.Idx) (hi0 : (i 0).val = 5000 * t.val + (j 0).val) (hi1 : (i 1).val = (j 1).val) :
    k0_pay1 (F := Ideal) (iblk0 V c 0 t) (iblk0 V c 1 t) (iblk0 V c 2 t) j = lin (V c main_arg0) (V c main_v0) B i := by
  refine (pay0_apply (iblk0 V c 0 t) (iblk0 V c 1 t) (iblk0 V c 2 t) j).trans ?_
  unfold lin
  refine congrArg₂ max (congrArg₂ (· + ·) (Finset.sum_congr rfl fun k _ => congrArg₂ (· * ·) ?_ ?_) ?_) rfl
  · exact rows0 V c t _ _ hi0 rfl
  · exact wblk0 V c t _ _ rfl hi1
  · exact (bblk0 V c t _ (brow j) rfl rfl).trans (hB _ _ hi1)

/-- WHAT POINT `t` WRITES BACK is block `t` of `lin` of the arrays the region finds. -/
theorem flushed0 (c : Dev nD) (B : FVec Ideal S64 .f32)
    (hB : ∀ (y : S1x64.Idx) (z : S64.Idx), (z 0).val = (y 1).val → (V c main_v1 : S1x64.Idx → EReal) y = B z) (t : Fin cfg0.N) :
    (dat0 V c).flushed 3 t = ((cfg0.win 3).blk t).view.read (Elt Ideal) (lin (V c main_arg0) (V c main_v0) B) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x64) hz, View.ld_unit_zero (S := S1x64) hz]
  obtain ⟨-, -, -, -, -, -, e6, e7⟩ := idx0 t
  funext j
  refine entry0 V c t B hB j _ ?_ ?_
  · show win0_3.index t 0 * 5000 + 1 * (j 0).val = 5000 * t.val + (j 0).val; rw [e6]; omega
  · show win0_3.index t 1 * 64 + 1 * (j 1).val = (j 1).val; rw [e7]; omega

/-- An index of the array is in point `t`'s output block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v2).slice (win0_3.rect t)).set ↔ _
  rw [View.set_slice_whole, Rect.mem_set_unit]
  exact Iff.rfl

/-- Row `r` is written back by point `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, e6, e7⟩ := idx0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ 0 * 5000 ≤ (i 0).val ∧ (i 0).val < win0_3.index ⟨(i 0).val / 5000, hlt⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ 1 * 64 ≤ (i 1).val ∧ (i 1).val < win0_3.index ⟨(i 0).val / 5000, hlt⟩ 1 * 64 + 64
    rw [e7]; omega

/-- THE ARRAY the first region leaves: `lin` of the arrays it finds. -/
theorem final0 (c : Dev nD) (B : FVec Ideal S64 .f32)
    (hB : ∀ (y : S1x64.Idx) (z : S64.Idx), (z 0).val = (y 1).val → (V c main_v1 : S1x64.Idx → EReal) y = B z) :
    (dat0 V c).arrAt 3 cfg0.N = lin (V c main_arg0) (V c main_v0) B :=
  (dat0 V c).arrAt_eq_of_cover 3 (lin (V c main_arg0) (V c main_v0) B) (fun t _ => flushed0 V c B hB t) cover0

end Cert.KernelIdeal.Hand

end
-- ==== Proof.Region1.lean ====
/-
  The second region's output array, whatever the buffers hold when the region is entered (`V`): with `M` and `H` the
  arrays under the two row windows, `WL` and `WR` the 64×64 arrays under the two weight windows and the 1×64 array under
  the bias window holding the bias `B`, the region leaves `combine M H WL WR B` — entry `(r, c)` is
  `(∑ₖ M[r,k]·WL[k,c] + B[c]) + ∑ₖ H[r,k]·WR[k,c]`.
  Point `t` of the 20-point grid computes rows `5000·t … 5000·t + 4999` from the same rows of `M` and `H`; the weight and
  bias blocks are the whole arrays; the blocks written back tile the 100000 rows.
-/
import proofs.«131698_j1176821039652_1_alg».proof.Proof.Gen.KernelIdeal.Frame
import proofs.«131698_j1176821039652_1_alg».proof.Proof.Payload
import proofs.«131698_j1176821039652_1_alg».proof.Proof.RefSpec
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.ReferenceIdeal.Spec

variable (V : (c : Dev nD) → (b : Ref sig .tc) → Buf (Elt Ideal) ((c : Thread nD τ).loc b))

theorem hz1 : (![0, 0] : Fin 2 → Nat) = fun _ => 0 := funext fun a => by fin_cases a <;> rfl

/-- The block indices over the grid: the two row windows and the output window move with the point, the weight and
    bias windows stay at block 0. -/
theorem idx1 : ∀ t : Fin cfg1.N, win1_0.index t 0 = t.val ∧ win1_0.index t 1 = 0 ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0 :=
  (by decide +kernel : ∀ t : Fin grid1.N, _)

/-- The first row block at point `t` is rows `5000·t …` of the array under it. -/
theorem mrows1 (c : Dev nD) (t : Fin cfg1.N) (x : S5000x64.Idx) (i : S100000x64.Idx)
    (h0 : (i 0).val = 5000 * t.val + (x 0).val) (h1 : (i 1).val = (x 1).val) :
    (iblk1 V c 0 t : FVec Ideal S5000x64 .f32) x = (V c main_v25 : S100000x64.Idx → EReal) i := by
  have e := idx1 t
  unfold iblk1
  rw [View.read_apply]
  show V c main_v25 _ = V c main_v25 _
  refine congrArg _ ?_
  funext a
  apply Fin.ext
  match a with
  | ⟨0, _⟩ => show win1_0.index t 0 * 5000 + 1 * (x 0).val = (i 0).val; rw [e.1, h0]; omega
  | ⟨1, _⟩ => show win1_0.index t 1 * 64 + 1 * (x 1).val = (i 1).val; rw [e.2.1, h1]; omega

/-- The second row block at point `t` is rows `5000·t …` of the array under it. -/
theorem hrows1 (c : Dev nD) (t : Fin cfg1.N) (x : S5000x64.Idx) (i : S100000x64.Idx)
    (h0 : (i 0).val = 5000 * t.val + (x 0).val) (h1 : (i 1).val = (x 1).val) :
    (iblk1 V c 1 t : FVec Ideal S5000x64 .f32) x = (V c main_v2 : S100000x64.Idx → EReal) i := by
  have e := idx1 t
  unfold iblk1
  rw [View.read_apply]
  show V c main_v2 _ = V c main_v2 _
  refine congrArg _ ?_
  funext a
  apply Fin.ext
  match a with
  | ⟨0, _⟩ => show win1_1.index t 0 * 5000 + 1 * (x 0).val = (i 0).val; rw [e.2.2.1, h0]; omega
  | ⟨1, _⟩ => show win1_1.index t 1 * 64 + 1 * (x 1).val = (i 1).val; rw [e.2.2.2.1, h1]; omega

/-- The first weight block at every point is the whole array under it. -/
theorem wlblk1 (c : Dev nD) (t : Fin cfg1.N) (x : S64x64.Idx) (i : S64x64.Idx)
    (h0 : (i 0).val = (x 0).val) (h1 : (i 1).val = (x 1).val) :
    (iblk1 V c 2 t : FVec Ideal S64x64 .f32) x = (V c main_v26 : S64x64.Idx → EReal) i := by
  have e := idx1 t
  unfold iblk1
  rw [View.read_apply]
  show V c main_v26 _ = V c main_v26 _
  refine congrArg _ ?_
  funext a
  apply Fin.ext
  match a with
  | ⟨0, _⟩ => show win1_2.index t 0 * 64 + 1 * (x 0).val = (i 0).val; rw [e.2.2.2.2.1, h0]; omega
  | ⟨1, _⟩ => show win1_2.index t 1 * 64 + 1 * (x 1).val = (i 1).val; rw [e.2.2.2.2.2.1, h1]; omega

/-- The bias block at every point is the whole array under it. -/
theorem bblk1 (c : Dev nD) (t : Fin cfg1.N) (x : S1x64.Idx) (i : S1x64.Idx)
    (h0 : (i 0).val = (x 0).val) (h1 : (i 1).val = (x 1).val) :
    (iblk1 V c 3 t : FVec Ideal S1x64 .f32) x = (V c main_v28 : S1x64.Idx → EReal) i := by
  have e := idx1 t
  unfold iblk1
  rw [View.read_apply]
  show V c main_v28 _ = V c main_v28 _
  refine congrArg _ ?_
  funext a
  apply Fin.ext
  match a with
  | ⟨0, _⟩ => show win1_3.index t 0 * 1 + 1 * (x 0).val = (i 0).val; rw [e.2.2.2.2.2.2.1, h0]; omega
  | ⟨1, _⟩ => show win1_3.index t 1 * 64 + 1 * (x 1).val = (i 1).val; rw [e.2.2.2.2.2.2.2.1, h1]; omega

/-- The second weight block at every point is the whole array under it. -/
theorem wrblk1 (c : Dev nD) (t : Fin cfg1.N) (x : S64x64.Idx) (i : S64x64.Idx)
    (h0 : (i 0).val = (x 0).val) (h1 : (i 1).val = (x 1).val) :
    (iblk1 V c 4 t : FVec Ideal S64x64 .f32) x = (V c main_v27 : S64x64.Idx → EReal) i := by
  have e := idx1 t
  unfold iblk1
  rw [View.read_apply]
  show V c main_v27 _ = V c main_v27 _
  refine congrArg _ ?_
  funext a
  apply Fin.ext
  match a with
  | ⟨0, _⟩ => show win1_4.index t 0 * 64 + 1 * (x 0).val = (i 0).val; rw [e.2.2.2.2.2.2.2.2.1, h0]; omega
  | ⟨1, _⟩ => show win1_4.index t 1 * 64 + 1 * (x 1).val = (i 1).val; rw [e.2.2.2.2.2.2.2.2.2.1, h1]; omega

/-- What point `t` stores at `(p, q)` of its block is `combine` at row `5000·t + p`, column `q`. -/
theorem entry1 (c : Dev nD) (t : Fin cfg1.N) (B : FVec Ideal S64 .f32)
    (hB : ∀ (y : S1x64.Idx) (z : S64.Idx), (z 0).val = (y 1).val → (V c main_v28 : S1x64.Idx → EReal) y = B z)
    (j : S5000x64.Idx) (i : S100000x64.Idx) (hi0 : (i 0).val = 5000 * t.val + (j 0).val) (hi1 : (i 1).val = (j 1).val) :
    k1_pay1 (F := Ideal) (iblk1 V c 0 t) (iblk1 V c 1 t) (iblk1 V c 2 t) (iblk1 V c 4 t) (iblk1 V c 3 t) j
      = combine (V c main_v25) (V c main_v2) (V c main_v26) (V c main_v27) B i := by
  refine (pay1_apply (iblk1 V c 0 t) (iblk1 V c 1 t) (iblk1 V c 2 t) (iblk1 V c 4 t) (iblk1 V c 3 t) j).trans ?_
  unfold combine
  refine congrArg₂ (· + ·) (congrArg₂ (· + ·) (Finset.sum_congr rfl fun k _ => congrArg₂ (· * ·) ?_ ?_) ?_)
    (Finset.sum_congr rfl fun k _ => congrArg₂ (· * ·) ?_ ?_)
  · exact mrows1 V c t _ _ hi0 rfl
  · exact wlblk1 V c t _ _ rfl hi1
  · exact (bblk1 V c t _ (brow j) rfl rfl).trans (hB _ _ hi1)
  · exact hrows1 V c t _ _ hi0 rfl
  · exact wrblk1 V c t _ _ rfl hi1

/-- WHAT POINT `t` WRITES BACK is block `t` of `combine` of the arrays the region finds. -/
theorem flushed1 (c : Dev nD) (B : FVec Ideal S64 .f32)
    (hB : ∀ (y : S1x64.Idx) (z : S64.Idx), (z 0).val = (y 1).val → (V c main_v28 : S1x64.Idx → EReal) y = B z) (t : Fin cfg1.N) :
    (dat1 V c).flushed 5 t = ((cfg1.win 5).blk t).view.read (Elt Ideal) (combine (V c main_v25) (V c main_v2) (V c main_v26) (V c main_v27) B) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x64) hz1, View.ld_unit_zero (S := S1x64) hz1]
  have e := idx1 t
  funext j
  refine entry1 V c t B hB j _ ?_ ?_
  · show win1_5.index t 0 * 5000 + 1 * (j 0).val = 5000 * t.val + (j 0).val; rw [e.2.2.2.2.2.2.2.2.2.2.1]; omega
  · show win1_5.index t 1 * 64 + 1 * (j 1).val = (j 1).val; rw [e.2.2.2.2.2.2.2.2.2.2.2]; omega

/-- An index of the array is in point `t`'s output block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v29).slice (win1_5.rect t)).set ↔ _
  rw [View.set_slice_whole, Rect.mem_set_unit]
  exact Iff.rfl

/-- Row `r` is written back by point `r / 5000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  have e := idx1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ 0 * 5000 ≤ (i 0).val ∧ (i 0).val < win1_5.index ⟨(i 0).val / 5000, hlt⟩ 0 * 5000 + 5000
    rw [e.2.2.2.2.2.2.2.2.2.2.1]; show (i 0).val / 5000 * 5000 ≤ (i 0).val ∧ (i 0).val < (i 0).val / 5000 * 5000 + 5000; omega
  | ⟨1, _⟩ =>
    show win1_5.index ⟨(i 0).val / 5000, hlt⟩ 1 * 64 ≤ (i 1).val ∧ (i 1).val < win1_5.index ⟨(i 0).val / 5000, hlt⟩ 1 * 64 + 64
    rw [e.2.2.2.2.2.2.2.2.2.2.2]; omega

/-- THE ARRAY the second region leaves: `combine` of the arrays it finds. -/
theorem final1 (c : Dev nD) (B : FVec Ideal S64 .f32)
    (hB : ∀ (y : S1x64.Idx) (z : S64.Idx), (z 0).val = (y 1).val → (V c main_v28 : S1x64.Idx → EReal) y = B z) :
    (dat1 V c).arrAt 5 cfg1.N = combine (V c main_v25) (V c main_v2) (V c main_v26) (V c main_v27) B :=
  (dat1 V c).arrAt_eq_of_cover 5 (combine (V c main_v25) (V c main_v2) (V c main_v26) (V c main_v27) B) (fun t _ => flushed1 V c B hB t) cover1

end Cert.KernelIdeal.Hand

end
-- ==== Proof.Host.lean ====
/-
  The host operations around the two regions, and the result array as the reference's function of the arguments.

  Before the first region the host transposes the 64×512 weight and reshapes the 64-entry bias into a row, so the first
  region leaves the hidden layer `h = lin x W1ᵀ b1`. Between the regions the host forms the neighbour mean of `h` along
  the edge list — the same chain of operations the reference applies, carried here as the one function `agg` and never
  opened —, transposes the two 64×64 weights and reshapes the second bias into a row; `h` itself is left in place. So
  the second region leaves `combine (agg h e) h Wlᵀ Wrᵀ bl`, which is the reference's last stage.
-/
import proofs.«131698_j1176821039652_1_alg».proof.Proof.Gen.KernelIdeal.Frame
import proofs.«131698_j1176821039652_1_alg».proof.Proof.RefSpec
import proofs.«131698_j1176821039652_1_alg».proof.Proof.Region0
import proofs.«131698_j1176821039652_1_alg».proof.Proof.Region1
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen Cert.ReferenceIdeal.Spec

variable (m : (ℓ : Loc nD τ sig) → Buf (Elt Ideal) ℓ) (ρ : Dev nD → PrngReg)

/-- A 64-entry vector reshaped into a 1×64 row reads, at `(0, q)`, the vector at `q`. -/
theorem bias_row (v : FVec Ideal S64 .f32) (y : S1x64.Idx) (z : S64.Idx) (h : (z 0).val = (y 1).val) :
    shapeCast S1x64 v shapeCasts_S64_S1x64 y = v z := by
  refine (shapeCast_addUnit_apply ![64] v shapeCasts_S64_S1x64 y).trans ?_
  refine congrArg v (funext fun a => Fin.ext ?_)
  match a with
  | ⟨0, _⟩ => exact h.symm

/-! ### What the first region finds -/

theorem V1_arg0 (c : Dev nD) : V1 m ρ c main_arg0 = m ((c : Thread nD τ).loc main_arg0) := by
  show StableHlo.after hostOps0 (W0 m ρ c) (Proc.devRef .tc main_arg0) = _
  after_results <;> rfl

theorem V1_v0 (c : Dev nD) : V1 m ρ c main_v0 = Cert.ReferenceIdeal.Read.val_main_v0 (F := Ideal) (m ((c : Thread nD τ).loc main_arg2)) := by
  show StableHlo.after hostOps0 (W0 m ρ c) (Proc.devRef .tc main_v0) = _
  after_results <;> rfl

theorem V1_v1 (c : Dev nD) : V1 m ρ c main_v1 = shapeCast S1x64 (m ((c : Thread nD τ).loc main_arg3)) shapeCasts_S64_S1x64 := by
  show StableHlo.after hostOps0 (W0 m ρ c) (Proc.devRef .tc main_v1) = _
  after_results <;> rfl

/-- The hidden layer the first region leaves. -/
theorem W2_v2 (c : Dev nD) : W2 m ρ c (Proc.devRef .tc main_v2)
    = lin (m ((c : Thread nD τ).loc main_arg0)) (Cert.ReferenceIdeal.Read.val_main_v0 (F := Ideal) (m ((c : Thread nD τ).loc main_arg2))) (m ((c : Thread nD τ).loc main_arg3)) := by
  refine (W2_arr m ρ c 3).trans ?_
  refine (final0 (V1 m ρ) c (m ((c : Thread nD τ).loc main_arg3)) ?_).trans ?_
  · intro y z h
    rw [V1_v1]
    exact bias_row _ y z h
  · rw [V1_arg0, V1_v0]

/-! ### The arguments the second stretch reads are as launched after the first region -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-! ### What the second region finds -/

/-- The neighbour mean, as the reference's own chain applied to the hidden layer and the edge list. -/
theorem V3_v25 (c : Dev nD) : V3 m ρ c main_v25 = agg (W2 m ρ c (Proc.devRef .tc main_v2)) (W2 m ρ c (Proc.devRef .tc main_arg1)) := by
  show StableHlo.after hostOps1 (W2 m ρ c) (Proc.devRef .tc main_v25) = _
  after_results_simp <;> rfl

/-- The hidden layer is left in place. -/
theorem V3_v2 (c : Dev nD) : V3 m ρ c main_v2 = W2 m ρ c (Proc.devRef .tc main_v2) := by
  show StableHlo.after hostOps1 (W2 m ρ c) (Proc.devRef .tc main_v2) = _
  after_results_simp <;> rfl

theorem V3_v26 (c : Dev nD) : V3 m ρ c main_v26 = Cert.ReferenceIdeal.Read.val_main_v29 (F := Ideal) (W2 m ρ c (Proc.devRef .tc main_arg4)) := by
  show StableHlo.after hostOps1 (W2 m ρ c) (Proc.devRef .tc main_v26) = _
  after_results_simp <;> rfl

theorem V3_v27 (c : Dev nD) : V3 m ρ c main_v27 = Cert.ReferenceIdeal.Read.val_main_v34 (F := Ideal) (W2 m ρ c (Proc.devRef .tc main_arg6)) := by
  show StableHlo.after hostOps1 (W2 m ρ c) (Proc.devRef .tc main_v27) = _
  after_results_simp <;> rfl

theorem V3_v28 (c : Dev nD) : V3 m ρ c main_v28 = shapeCast S1x64 (W2 m ρ c (Proc.devRef .tc main_arg5)) shapeCasts_S64_S1x64 := by
  show StableHlo.after hostOps1 (W2 m ρ c) (Proc.devRef .tc main_v28) = _
  after_results_simp <;> rfl

/-! ### The result -/

/-- THE RESULT ARRAY after the run is the reference's last stage of the launch arguments. -/
theorem result_eq (c : Dev nD) : W4 m ρ c (Proc.devRef .tc main_v29)
    = Cert.ReferenceIdeal.Read.val_main_v36 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (W4_arr m ρ c 5).trans ?_
  refine (final1 (V3 m ρ) c (m ((c : Thread nD τ).loc main_arg5)) ?_).trans ?_
  · intro y z h
    rw [V3_v28, W2_arg5]
    exact bias_row _ y z h
  · rw [V3_v25, V3_v2, V3_v26, V3_v27, W2_v2, W2_arg1, W2_arg4, W2_arg6, v36_eq, v28_eq, v5_eq]

end Cert.KernelIdeal.Hand

end
-- ==== Proof.lean ====
/-
  The kernel and the reference compute the same two-layer graph convolution, stage by stage:

    h    = max (x · W1ᵀ + b1) 0                       a dense layer and the rectifier, 100000×64;
    mean = agg h e                                     for every node the mean of `h` over its incoming edges (rows of `h`
                                                       gathered by the source column of the edge list, summed into the
                                                       destination rows, divided by the larger of the in-degree and 1);
    out  = (mean · Wlᵀ + bl) + h · Wrᵀ.

  The kernel computes `h` and `out` in two grids of 20 blocks of 5000 rows each, rounding the operands of its matrix
  products to bf16 on the way in — the identity on extended reals — and forms `mean` on the host by the very operations
  the reference uses. At the ideal instance each block's product is the reference's `dot_general` restricted to the
  block's rows, the sums are the same sums in the same grouping, and no algebraic law beyond that is needed: the claim
  holds for all inputs, and the precondition is never opened.

  Modules: `RefSpec` names the reference's three stages (`lin`, `agg`, `combine`); `Payload` reads each kernel body's
  store at an entry; `Region0` / `Region1` turn the blocks into the whole array a region leaves; `Host` reads the host
  operations around the regions and concludes that the result array is the reference's last stage; `KernelRun` is the
  kernel's run with the result array named. The frames of the two kernel programs are the generated ones; the
  reference's frame is its generated run with the result dropped; the idealization rewrote nothing.
-/
import proofs.«131698_j1176821039652_1_alg».proof.Defs
import proofs.«131698_j1176821039652_1_alg».proof.Proof.Gen.Kernel
import proofs.«131698_j1176821039652_1_alg».proof.Proof.Gen.Kernel.Skeleton
import proofs.«131698_j1176821039652_1_alg».proof.Proof.Gen.Kernel.Launch
import proofs.«131698_j1176821039652_1_alg».proof.Proof.Gen.Kernel.Points
import proofs.«131698_j1176821039652_1_alg».proof.Proof.Gen.Kernel.Frame
import proofs.«131698_j1176821039652_1_alg».proof.Proof.Gen.KernelIdeal
import proofs.«131698_j1176821039652_1_alg».proof.Proof.Gen.KernelIdeal.Skeleton
import proofs.«131698_j1176821039652_1_alg».proof.Proof.Gen.KernelIdeal.Launch
import proofs.«131698_j1176821039652_1_alg».proof.Proof.Gen.KernelIdeal.Points
import proofs.«131698_j1176821039652_1_alg».proof.Proof.Gen.KernelIdeal.Frame
import proofs.«131698_j1176821039652_1_alg».proof.Proof.Gen.ReferenceIdeal
import proofs.«131698_j1176821039652_1_alg».proof.Proof.Gen.Pre_finite_inputs
import proofs.«131698_j1176821039652_1_alg».proof.Proof.Gen.ReferenceIdeal.Read
import proofs.«131698_j1176821039652_1_alg».proof.Proof.KernelRun
import proofs.«131698_j1176821039652_1_alg».proof.Proof.Host
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's last stage of the (agreeing) arguments. -/
theorem algebraic : Cert.algebraic_KernelIdeal_ReferenceIdeal := by
  intro m ρ m' ρ' _ hagree
  refine ⟨fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.result_eq m ρ c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [a0, a1, a2, a3, a4, a5, a6]
    exact Cert.ReferenceIdeal.Read.val_main_v36_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
